-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg6 : FVec F S128x47 .f32) (main_arg7 : FVec F S128x47 .f32) (main_arg8 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x47 .f32 := Host.absf main_arg6
  let main_cst_6 : FVec F S_ .f32 := constant S_ .f32 0x7F800000#32
  let main_v20 : FVec F S128x47 .f32 := broadcastInDim S128x47 ![] bcast_S_S128x47 main_cst_6
  let main_v21 : IVec S128x47 1 := cmpf .olt main_v19 main_v20
  let main_c_7 : IVec S_ 1 := constantI S_ 1 1#1
  let main_v22 : IVec S_ 1 := (fun x v => Host.reduce IntOp.andi x v reducesTo_S128x47_S_d0_1 h_S_) main_v21 main_c_7
  let main_v23 : IVec S_ 1 := andi main_v18 main_v22
  let main_v24 : FVec F S128x47 .f32 := Host.absf main_arg7
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg8
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S100000x128 .f32) (main_arg1 : IVec S640000 32) (main_arg2 : IVec S640000 32) (main_arg3 : FVec F S128x128 .f32) (main_arg4 : FVec F S128x128 .f32) (main_arg5 : FVec F S128 .f32) (main_arg6 : FVec F S128x47 .f32) (main_arg7 : FVec F S128x47 .f32) (main_arg8 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩
abbrev S100000x47 : Shape := ⟨2, ![100000, 47]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S128x47, .f32⟩
  | .hbm, ⟨8, _⟩ => ⟨S47, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S100000x128, .f32⟩
  | .hbm, ⟨45, _⟩ => ⟨S640000x1, .i32⟩
  | .hbm, ⟨46, _⟩ => ⟨S100000x128, .f32⟩
  | .hbm, ⟨47, _⟩ => ⟨S_, .i32⟩
  | .hbm, ⟨48, _⟩ => ⟨S_, .f32⟩
  | .hbm, ⟨49, _⟩ => ⟨S128x128, .f32⟩
  | .hbm, ⟨50, _⟩ => ⟨S_, .i32⟩
  | .hbm, ⟨51, _⟩ => ⟨S_, .f32⟩
  | .hbm, ⟨52, _⟩ => ⟨S128x128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_call0_v0 : Ref sig .tc := ⟨.hbm, 48, rfl⟩
abbrev main_v29 : Ref sig .tc := ⟨.hbm, 49, rfl⟩
abbrev main_c_8 : Ref sig .tc := ⟨.hbm, 50, rfl⟩
abbrev main_call1_v0 : Ref sig .tc := ⟨.hbm, 51, rfl⟩
abbrev main_v30 : Ref sig .tc := ⟨.hbm, 52, rfl⟩
abbrev main_c_9 : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x47_S128x128_000_0810 : S128x47.Pads (![0, 0] : Fin 2 → Nat) ![0, 81] ![0, 0] S128x128
  h_S_ : 0 < S_.numel
  pads_S47_S128_0810 : S47.Pads (![0] : Fin 1 → Nat) ![81] ![0] S128
  shapeCasts_S128x128_S128x128 : S128x128.ShapeCasts S128x128
  slices_S100000x128_S100000x47_0_0 : S100000x128.Slices ![0, 0] S100000x47
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S100000x47 : Shape := ⟨2, ![100000, 47]⟩
abbrev S1x47 : Shape := ⟨2, ![1, 47]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S128x47, .f32⟩
  | .hbm, ⟨8, _⟩ => ⟨S47, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S100000x128, .f32⟩
  | .hbm, ⟨54, _⟩ => ⟨S640000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x47, .f32⟩
  | .hbm, ⟨59, _⟩ => ⟨S100000x47, .f32⟩
  | .hbm, ⟨60, _⟩ => ⟨S100000x47, .f32⟩
  | .hbm, ⟨61, _⟩ => ⟨S1x47, .f32⟩
  | .hbm, ⟨62, _⟩ => ⟨S100000x47, .f32⟩
  | .hbm, ⟨63, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The kernel program's run with its result named.

  The program is a chain of host stretches and two kernel launches. Every weakly fair execution terminates without a
  fault, and the final memory holds, at every buffer that is never scoped, the contents the chain folds to from the
  launch memory: the host operations' values one after the other, and at each launch's result array what the launch's
  write-backs leave. The arguments are never written; the result buffer holds the last fold's value at it.
-/
import proofs.«162522_j51908974739648_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents, and the arguments end as launched. -/
theorem run_named : θ_run defs (onTc (τ := τ) (main (F := F))) ⟨m, fun _ => 0, ρ⟩ (fun r => ∀ c : Dev nD,
      r.2.mem ((c.tc : Thread nD τ).loc main_v34) = W11 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v34 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Run

end
-- ==== Proof.KernelHost.lean ====
/-
  The kernel program's host operations, as functions of what they read.

  Around the two launches the host computes: the clamped in-degree column `max(Σ_{e : dst e = i} 1, 1)` of the
  destination list; for a node array `h`, the neighbour sums `Σ_{e : dst e = i} h[src e]` (a gather of the source rows,
  negative indices wrapped, then a scatter-add into zeros at the destinations); a bias vector recast as a row; the
  second layer's weight matrices and bias padded with zeros from 47 to 128 columns; and, last, the first 47 columns of
  the second launch's result. Each is named here as one function, and the contents of each launch's operand arrays
  when the launch is entered, and of the result buffer at the end, are read off the chain of host stretches in those
  terms: nothing between the launches writes the first launch's result or the degree column.
-/
import proofs.«162522_j51908974739648_1_alg».proof.Proof.Gen.KernelIdeal.Frame
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.StableHlo

variable {F : FTy → Type} [FloatOps F]

/-- The neighbour sums of the node array `h` along the edges `src → dst`. -/
def aggr (h : (⟨S100000x128, .f32⟩ : BufTy).Contents (Elt F)) (src dst : (⟨S640000, .i32⟩ : BufTy).Contents (Elt F)) : (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- The in-degrees of the destination list, clamped below by one, as a column. -/
def degcol (dst : (⟨S640000, .i32⟩ : BufTy).Contents (Elt F)) : (⟨S100000x1, .f32⟩ : BufTy).Contents (Elt F) :=
  broadcastInDim S100000x1 ![0] bcast_S100000_S100000x1_0
    (maximumf
      (Host.scatterAdd scatter_S100000_S640000x1_S640000_n_0_0_1
        (broadcastInDim S100000 ![] bcast_S_S100000 (constant S_ .f32 0x00000000#32))
        (broadcastInDim S640000x1 ![0] bcast_S640000_S640000x1_0 dst)
        (broadcastInDim S640000 ![] bcast_S_S640000 (constant S_ .f32 0x3F800000#32)))
      (broadcastInDim S100000 ![] bcast_S_S100000 (constant S_ .f32 0x3F800000#32)))

/-- A vector of 128 entries recast as a row. -/
def row (b : (⟨S128, .f32⟩ : BufTy).Contents (Elt F)) : (⟨S1x128, .f32⟩ : BufTy).Contents (Elt F) :=
  shapeCast S1x128 b shapeCasts_S128_S1x128

/-- A 128 × 47 matrix padded on the right with the integer 0 read as a float, to 128 × 128. -/
def padw (w : (⟨S128x47, .f32⟩ : BufTy).Contents (Elt F)) : (⟨S128x128, .f32⟩ : BufTy).Contents (Elt F) :=
  pad S128x128 ![0, 0] ![0, 81] ![0, 0] w (sitofp .f32 (constantI S_ 32 0#32)) pads_S128x47_S128x128_000_0810 h_S_

/-- A vector of 47 entries padded at the end with the integer 0 read as a float, to 128 entries. -/
def padb (b : (⟨S47, .f32⟩ : BufTy).Contents (Elt F)) : (⟨S128, .f32⟩ : BufTy).Contents (Elt F) :=
  pad S128 ![0] ![81] ![0] b (sitofp .f32 (constantI S_ 32 0#32)) pads_S47_S128_0810 h_S_

/-- The first 47 columns of a node array. -/
def cols47 (x : (⟨S100000x128, .f32⟩ : BufTy).Contents (Elt F)) : (⟨S100000x47, .f32⟩ : BufTy).Contents (Elt F) :=
  extractStridedSlice S100000x47 ![0, 0] x slices_S100000x128_S100000x47_0_0

variable (m : (ℓ : Loc nD τ sig) → Buf (Elt F) ℓ) (ρ : Dev nD → PrngReg)

/-! ## Entering the first launch -/

theorem V1_arg0 (c : Dev nD) : V1 m ρ c main_arg0 = m ((c : Thread nD τ).loc main_arg0) := by
  show StableHlo.after hostOps0 (W0 m ρ c) (Proc.devRef .tc main_arg0) = _
  dsimp only [hostOps0]; after_results_simp <;> rfl
theorem V1_arg1 (c : Dev nD) : V1 m ρ c main_arg1 = m ((c : Thread nD τ).loc main_arg1) := by
  show StableHlo.after hostOps0 (W0 m ρ c) (Proc.devRef .tc main_arg1) = _
  dsimp only [hostOps0]; after_results_simp <;> rfl
theorem V1_arg2 (c : Dev nD) : V1 m ρ c main_arg2 = m ((c : Thread nD τ).loc main_arg2) := by
  show StableHlo.after hostOps0 (W0 m ρ c) (Proc.devRef .tc main_arg2) = _
  dsimp only [hostOps0]; after_results_simp <;> rfl
theorem V1_arg3 (c : Dev nD) : V1 m ρ c main_arg3 = m ((c : Thread nD τ).loc main_arg3) := by
  show StableHlo.after hostOps0 (W0 m ρ c) (Proc.devRef .tc main_arg3) = _
  dsimp only [hostOps0]; after_results_simp <;> rfl
theorem V1_arg4 (c : Dev nD) : V1 m ρ c main_arg4 = m ((c : Thread nD τ).loc main_arg4) := by
  show StableHlo.after hostOps0 (W0 m ρ c) (Proc.devRef .tc main_arg4) = _
  dsimp only [hostOps0]; after_results_simp <;> rfl
theorem V1_arg6 (c : Dev nD) : V1 m ρ c main_arg6 = m ((c : Thread nD τ).loc main_arg6) := by
  show StableHlo.after hostOps0 (W0 m ρ c) (Proc.devRef .tc main_arg6) = _
  dsimp only [hostOps0]; after_results_simp <;> rfl
theorem V1_arg7 (c : Dev nD) : V1 m ρ c main_arg7 = m ((c : Thread nD τ).loc main_arg7) := by
  show StableHlo.after hostOps0 (W0 m ρ c) (Proc.devRef .tc main_arg7) = _
  dsimp only [hostOps0]; after_results_simp <;> rfl
theorem V1_arg8 (c : Dev nD) : V1 m ρ c main_arg8 = m ((c : Thread nD τ).loc main_arg8) := by
  show StableHlo.after hostOps0 (W0 m ρ c) (Proc.devRef .tc main_arg8) = _
  dsimp only [hostOps0]; after_results_simp <;> rfl

set_option maxHeartbeats 2000000 in
/-- The first launch finds the neighbour sums of the input features in its second operand. -/
theorem V1_msg (c : Dev nD) : V1 m ρ c main_v16
    = aggr (m ((c : Thread nD τ).loc main_arg0)) (m ((c : Thread nD τ).loc main_arg1)) (m ((c : Thread nD τ).loc main_arg2)) := by
  show StableHlo.after hostOps0 (W0 m ρ c) (Proc.devRef .tc main_v16) = _
  dsimp only [hostOps0]; after_results_simp <;> rfl

/-- The first launch finds the clamped degree column in its third operand. -/
theorem V1_deg (c : Dev nD) : V1 m ρ c main_v6 = degcol (m ((c : Thread nD τ).loc main_arg2)) := by
  show StableHlo.after hostOps0 (W0 m ρ c) (Proc.devRef .tc main_v6) = _
  dsimp only [hostOps0]; after_results_simp <;> rfl

/-- The first launch finds the first bias as a row in its last operand. -/
theorem V1_bias (c : Dev nD) : V1 m ρ c main_v17 = row (m ((c : Thread nD τ).loc main_arg5)) := by
  show StableHlo.after hostOps0 (W0 m ρ c) (Proc.devRef .tc main_v17) = _
  dsimp only [hostOps0]; after_results_simp <;> rfl

end Cert.KernelIdeal.HostVal

end
-- ==== Proof.KernelHost2.lean ====
/-
  Between the two launches, and after the second.

  The host stretches between the launches compute the second layer's operands from what the first launch left: its
  result array is kept, its neighbour sums are taken along the same edges, the degree column is the one computed
  before the first launch, and the second weights and bias are padded to 128 columns. After the second launch the
  result buffer is the first 47 columns of the launch's result array. The first launch leaves its input arrays and
  every buffer that is not one of its windows as it found them.
-/
import proofs.«162522_j51908974739648_1_alg».proof.Proof.KernelHost

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## What the first launch leaves -/

/-- The first launch's result array is what its write-backs leave. -/
theorem W2_hid (c : Dev nD) : W2 m ρ c (Proc.devRef .tc main_v18) = (dat0 (V1 m ρ) c).arrAt 6 cfg0.N := W2_arr m ρ c 6

/-- The degree column, an input window of the first launch, is left as found. -/
theorem W2_deg (c : Dev nD) : W2 m ρ c (Proc.devRef .tc main_v6) = V1 m ρ c main_v6 :=
  (W2_arr m ρ c 2).trans (((dat0 (V1 m ρ) c).arrAt_in 2 rfl _).trans (A_eq0 (V1 m ρ) c 2))

theorem W2_arg1 (c : Dev nD) : W2 m ρ c (Proc.devRef .tc main_arg1) = V1 m ρ c main_arg1 := W2_of_ne m ρ c main_arg1 (by decide)
theorem W2_arg2 (c : Dev nD) : W2 m ρ c (Proc.devRef .tc main_arg2) = V1 m ρ c main_arg2 := W2_of_ne m ρ c main_arg2 (by decide)
theorem W2_arg6 (c : Dev nD) : W2 m ρ c (Proc.devRef .tc main_arg6) = V1 m ρ c main_arg6 := W2_of_ne m ρ c main_arg6 (by decide)
theorem W2_arg7 (c : Dev nD) : W2 m ρ c (Proc.devRef .tc main_arg7) = V1 m ρ c main_arg7 := W2_of_ne m ρ c main_arg7 (by decide)
theorem W2_arg8 (c : Dev nD) : W2 m ρ c (Proc.devRef .tc main_arg8) = V1 m ρ c main_arg8 := W2_of_ne m ρ c main_arg8 (by decide)

/-! ## Entering the second launch -/

/-- Nothing between the launches writes the first launch's result. -/
theorem V9_hid (c : Dev nD) : V9 m ρ c main_v18 = W2 m ρ c (Proc.devRef .tc main_v18) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v18) = _
  dsimp only [hostOps1, hostOps1_1, hostOps1_2, hostOps1_3, hostOps1_4, hostOps1_5, hostOps1_6]; after_results_simp <;> rfl

/-- Nor the degree column. -/
theorem V9_deg (c : Dev nD) : V9 m ρ c main_v6 = W2 m ρ c (Proc.devRef .tc main_v6) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v6) = _
  dsimp only [hostOps1, hostOps1_1, hostOps1_2, hostOps1_3, hostOps1_4, hostOps1_5, hostOps1_6]; after_results_simp <;> rfl

set_option maxHeartbeats 2000000 in
/-- The second launch finds, in its second operand, the neighbour sums of the first launch's result. -/
theorem V9_msg (c : Dev nD) : V9 m ρ c main_v28
    = aggr (W2 m ρ c (Proc.devRef .tc main_v18)) (W2 m ρ c (Proc.devRef .tc main_arg1)) (W2 m ρ c (Proc.devRef .tc main_arg2)) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v28) = _
  dsimp only [hostOps1, hostOps1_1, hostOps1_2, hostOps1_3, hostOps1_4, hostOps1_5, hostOps1_6]; after_results_simp <;> rfl

/-- The second launch finds the padded second weights. -/
theorem V9_wself (c : Dev nD) : V9 m ρ c main_v29 = padw (W2 m ρ c (Proc.devRef .tc main_arg6)) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v29) = _
  dsimp only [hostOps1, hostOps1_1, hostOps1_2, hostOps1_3, hostOps1_4, hostOps1_5, hostOps1_6]; after_results_simp <;> rfl

theorem V9_wneigh (c : Dev nD) : V9 m ρ c main_v30 = padw (W2 m ρ c (Proc.devRef .tc main_arg7)) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v30) = _
  dsimp only [hostOps1, hostOps1_1, hostOps1_2, hostOps1_3, hostOps1_4, hostOps1_5, hostOps1_6]; after_results_simp <;> rfl

/-- The second launch finds the padded second bias as a row. -/
theorem V9_bias (c : Dev nD) : V9 m ρ c main_v32 = row (padb (W2 m ρ c (Proc.devRef .tc main_arg8))) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v32) = _
  dsimp only [hostOps1, hostOps1_1, hostOps1_2, hostOps1_3, hostOps1_4, hostOps1_5, hostOps1_6]; after_results_simp <;> rfl

/-! ## After the second launch -/

/-- The second launch's result array is what its write-backs leave. -/
theorem W10_out (c : Dev nD) : W10 m ρ c (Proc.devRef .tc main_v33) = (dat1 (V9 m ρ) c).arrAt 6 cfg1.N := W10_arr m ρ c 6

/-- The result buffer is the first 47 columns of the second launch's result array. -/
theorem W11_out (c : Dev nD) : W11 m ρ c (Proc.devRef .tc main_v34) = cols47 (W10 m ρ c (Proc.devRef .tc main_v33)) := by
  show StableHlo.after hostOps2 (W10 m ρ c) (Proc.devRef .tc main_v34) = _
  dsimp only [hostOps2]; after_results_simp <;> rfl

end Cert.KernelIdeal.HostVal

end
-- ==== Proof.SageSpec.lean ====
/-
  One layer of a mean-aggregating graph convolution, index by index over the extended reals.

  For node features `h` (one row of 128 per node), the neighbour sums `msg` (same layout), the clamped in-degrees
  `deg` (one entry per node, kept as a column), two 128 × 128 weight matrices and a bias row, the layer's value at node
  `i` and output feature `q` is

      (∑ₖ h[i,k] · ws[k,q]  +  ∑ₖ (msg[i,k] / deg[i]) · wn[k,q])  +  b[q].

  The number of rows is a parameter: a block of 5000 consecutive nodes and the whole array of 100000 nodes are two
  instances of the same formula, and a row of the block is a row of the array.
-/
import Idealize.ShloMosaic.PureOps.Ideal
import Idealize.ShloMosaic.Lib.ValueIdx

noncomputable section

namespace Cert.Sage

open Idealize.ShloMosaic Idealize.ShloMosaic.ValueIdx

/-- The layer before its activation, at node `i` and output feature `q`. -/
def pre {n : ℕ} (h msg : (⟨2, ![n, 128]⟩ : Shape).Idx → EReal) (deg : (⟨2, ![n, 1]⟩ : Shape).Idx → EReal)
    (ws wn : (⟨2, ![128, 128]⟩ : Shape).Idx → EReal) (b : (⟨2, ![1, 128]⟩ : Shape).Idx → EReal)
    (i : Fin n) (q : Fin 128) : EReal :=
  (∑ k : Fin 128, h (ix2 i k) * ws (ix2 k q)
    + ∑ k : Fin 128, Ideal.div (msg (ix2 i k)) (deg (ix2 i (0 : Fin 1))) * wn (ix2 k q))
    + b (ix2 (0 : Fin 1) q)

/-- The first layer as an array: the formula followed by the rectifier `max · 0`. -/
def hidden {n : ℕ} (h msg : (⟨2, ![n, 128]⟩ : Shape).Idx → EReal) (deg : (⟨2, ![n, 1]⟩ : Shape).Idx → EReal)
    (ws wn : (⟨2, ![128, 128]⟩ : Shape).Idx → EReal) (b : (⟨2, ![1, 128]⟩ : Shape).Idx → EReal) :
    (⟨2, ![n, 128]⟩ : Shape).Idx → EReal :=
  fun j => max (pre h msg deg ws wn b (j 0) (j 1)) (Ideal.ofBits .f32 0x00000000#32)

/-- The second layer as an array: the formula alone. -/
def linear {n : ℕ} (h msg : (⟨2, ![n, 128]⟩ : Shape).Idx → EReal) (deg : (⟨2, ![n, 1]⟩ : Shape).Idx → EReal)
    (ws wn : (⟨2, ![128, 128]⟩ : Shape).Idx → EReal) (b : (⟨2, ![1, 128]⟩ : Shape).Idx → EReal) :
    (⟨2, ![n, 128]⟩ : Shape).Idx → EReal :=
  fun j => pre h msg deg ws wn b (j 0) (j 1)

/-- The formula reads only row `i` of the node arrays: two families of arrays that agree on that row (a block's row
    `p` and the array's row `i`) give the same value. -/
theorem pre_congr {n n' : ℕ} (h msg : (⟨2, ![n, 128]⟩ : Shape).Idx → EReal) (deg : (⟨2, ![n, 1]⟩ : Shape).Idx → EReal)
    (h' msg' : (⟨2, ![n', 128]⟩ : Shape).Idx → EReal) (deg' : (⟨2, ![n', 1]⟩ : Shape).Idx → EReal)
    (ws wn : (⟨2, ![128, 128]⟩ : Shape).Idx → EReal) (b : (⟨2, ![1, 128]⟩ : Shape).Idx → EReal)
    (p : Fin n) (i : Fin n') (q : Fin 128)
    (hh : ∀ k : Fin 128, h (ix2 p k) = h' (ix2 i k)) (hm : ∀ k : Fin 128, msg (ix2 p k) = msg' (ix2 i k))
    (hd : deg (ix2 p (0 : Fin 1)) = deg' (ix2 i (0 : Fin 1))) :
    pre h msg deg ws wn b p q = pre h' msg' deg' ws wn b i q := by
  unfold pre
  rw [hd]
  simp only [hh, hm]

end Cert.Sage

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.KernelBody.lean ====
/-
  The two kernel bodies, read at an index.

  Each body takes a block of 5000 consecutive nodes: the nodes' features, their neighbour sums, their degrees as a
  column, the two whole weight matrices and the bias row. It divides the neighbour sums by the degree column spread
  along the rows, multiplies the features and the quotients into zero accumulators, adds the two products and the
  bias row spread along the columns; the first body also takes the maximum with zero. The roundings to bf16 on the way
  into the products are the identity on the extended reals. So at row `p` and column `q` of the block the stored value
  is the layer's formula of the block's arrays (with the rectifier for the first body).
-/
import proofs.«162522_j51908974739648_1_alg».proof.Proof.Gen.KernelIdeal.Skeleton
import proofs.«162522_j51908974739648_1_alg».proof.Proof.SageSpec
import proofs.«162522_j51908974739648_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Idealize.ShloMosaic Idealize.ShloMosaic.ValueIdx

theorem lhs_row (i : S5000x128.Idx) (x : dot_S5000x128_S128x128_S5000x128_1_0_0_1_n_n.contr.Idx) :
    (dot_S5000x128_S128x128_S5000x128_1_0_0_1_n_n.lhsIdx i x 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (x : dot_S5000x128_S128x128_S5000x128_1_0_0_1_n_n.contr.Idx) :
    (dot_S5000x128_S128x128_S5000x128_1_0_0_1_n_n.lhsIdx i x 1).val = (x ⟨0, by decide⟩).val :=
  dot_S5000x128_S128x128_S5000x128_1_0_0_1_n_n.lhsIdx_val_of_single rfl i x
theorem rhs_contr (i : S5000x128.Idx) (x : dot_S5000x128_S128x128_S5000x128_1_0_0_1_n_n.contr.Idx) :
    (dot_S5000x128_S128x128_S5000x128_1_0_0_1_n_n.rhsIdx i x 0).val = (x ⟨0, by decide⟩).val :=
  dot_S5000x128_S128x128_S5000x128_1_0_0_1_n_n.rhsIdx_val_of_single rfl i x
theorem rhs_col (i : S5000x128.Idx) (x : dot_S5000x128_S128x128_S5000x128_1_0_0_1_n_n.contr.Idx) :
    (dot_S5000x128_S128x128_S5000x128_1_0_0_1_n_n.rhsIdx i x 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block-by-matrix product into the zero accumulator, at row `p` and column `q`: the sum over the contracted
    coordinate `k` of the left operand at `(p, k)` times the right operand at `(k, q)`. -/
theorem matmul_block {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The first body's stored value at `(p, q)`: the rectified layer formula of the block's arrays. -/
theorem pay0_apply (v0 : FVec Ideal S5000x128 .f32) (v2 : FVec Ideal S5000x1 .f32) (v6 : FVec Ideal S5000x128 .f32)
    (v9 v11 : FVec Ideal S128x128 .f32) (v16 : FVec Ideal S1x128 .f32) (p : Fin 5000) (q : Fin 128) :
    Gen.k0_pay1 (F := Ideal) v0 v2 v6 v9 v11 v16 (ix2 p q)
      = max (Sage.pre v6 v0 v2 v9 v11 v16 p q) (Ideal.ofBits .f32 0x00000000#32) := by
  unfold Gen.k0_pay1 Sage.pre
  simp only [maximumf_apply, addf_apply, matmul_block, truncf_apply, divf_apply, shapeCast_self, broadcast_apply,
    LibKeepdims.broadcastTo_a1_ab_apply, broadcastTo_1b_ab_apply, LibKeepdims.scalar_ofBits]

/-- The second body's stored value at `(p, q)`: the layer formula of the block's arrays. -/
theorem pay1_apply (v0 : FVec Ideal S5000x128 .f32) (v2 : FVec Ideal S5000x1 .f32) (v6 : FVec Ideal S5000x128 .f32)
    (v10 v13 : FVec Ideal S128x128 .f32) (v19 : FVec Ideal S1x128 .f32) (p : Fin 5000) (q : Fin 128) :
    Gen.k1_pay1 (F := Ideal) v0 v2 v6 v10 v13 v19 (ix2 p q) = Sage.pre v6 v0 v2 v10 v13 v19 p q := by
  unfold Gen.k1_pay1 Sage.pre
  simp only [addf_apply, matmul_block, truncf_apply, divf_apply, shapeCast_self,
    LibKeepdims.broadcastTo_a1_ab_apply, broadcastTo_1b_ab_apply]

end Cert.KernelIdeal.Body

end
-- ==== Proof.KernelRegion0.lean ====
/-
  The first kernel launch, as one array.

  The launch walks 20 blocks of 5000 consecutive nodes. At block `t` the node arrays' windows (features, neighbour
  sums, degree column) and the result's window all sit at rows `5000·t … 5000·t + 4999`, and the weight and bias windows
  are the whole arrays. So what the body stores for row `p` of block `t` is the rectified layer formula at node
  `5000·t + p` of the whole arrays, the blocks tile the result, and the result array after the launch is the rectified
  layer of the arrays the launch found.
-/
import proofs.«162522_j51908974739648_1_alg».proof.Proof.Gen.KernelIdeal.Frame
import proofs.«162522_j51908974739648_1_alg».proof.Proof.KernelBody
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window sits at block `t`: the node windows and the result at block row `t`, block column 0; the
    weight and bias windows at the origin. Decided over the 20 blocks. -/
theorem positions : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first weight window's block is the whole matrix. -/
theorem wself_block (c : Dev nD) (t : Fin cfg0.N) : iblk0 V c 3 t = V c main_arg3 := by
  obtain ⟨-, -, -, -, -, -, e0, e1, -⟩ := positions t
  funext y
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second weight window's block is the whole matrix. -/
theorem wneigh_block (c : Dev nD) (t : Fin cfg0.N) : iblk0 V c 4 t = V c main_arg4 := by
  obtain ⟨-, -, -, -, -, -, -, -, e0, e1, -⟩ := positions t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias window's block is the whole row. -/
theorem bias_block (c : Dev nD) (t : Fin cfg0.N) : iblk0 V c 5 t = V c main_v17 := by
  obtain ⟨-, -, -, -, -, -, -, -, -, -, e0, e1, -⟩ := positions t
  funext y
  show V c main_v17 (((cfg0.win 5).blk t).view.emb y) = V c main_v17 y
  refine congrArg (V c main_v17) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What block `t` writes back is block `t` of the rectified layer of the arrays the launch found. -/
theorem flushed (c : Dev nD) (t : Fin cfg0.N) :
    (dat0 V c).flushed 6 t = ((cfg0.win 6).blk t).view.read (Elt Ideal)
      (Sage.hidden (V c main_arg0) (V c main_v16) (V c main_v6) (V c main_arg3) (V c main_arg4) (V c main_v17)) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  rw [wself_block, wneigh_block, bias_block]
  obtain ⟨a0, a1, b0, b1, d0, d1, -, -, -, -, -, -, o0, o1⟩ := positions t
  funext j
  obtain ⟨p, q, rfl⟩ : ∃ (p : Fin 5000) (q : Fin 128), j = ix2 p q := ⟨j 0, j 1, eq_ix2 j⟩
  show k0_pay1 (iblk0 V c 1 t) (iblk0 V c 2 t) (iblk0 V c 0 t) (V c main_arg3) (V c main_arg4) (V c main_v17) (ix2 p q)
    = Sage.hidden (V c main_arg0) (V c main_v16) (V c main_v6) (V c main_arg3) (V c main_arg4) (V c main_v17)
        (((cfg0.win 6).blk t).view.emb (ix2 p q))
  refine (Body.pay0_apply _ _ _ _ _ _ p q).trans ?_
  unfold Sage.hidden
  refine congrArg (max · _) ?_
  have hq : (((cfg0.win 6).blk t).view.emb (ix2 p q)) 1 = q :=
    Fin.ext (by show win0_6.index t (1 : Fin 2) * 128 + 1 * q.val = q.val; omega)
  rw [hq]
  refine Sage.pre_congr _ _ _ _ _ _ _ _ _ p _ q (fun k => ?_) (fun k => ?_) ?_
  · show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  · show V c main_v16 (((cfg0.win 1).blk t).view.emb (ix2 p k)) = V c main_v16 (ix2 _ k)
    refine congrArg (V c main_v16) (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega
  · show V c main_v6 (((cfg0.win 2).blk t).view.emb (ix2 p (0 : Fin 1))) = V c main_v6 (ix2 _ (0 : Fin 1))
    refine congrArg (V c main_v6) (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega

/-- A node is in block `t` iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- The 20 blocks cover the result: node `r` is in block `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_block]
  obtain ⟨-, -, -, -, -, -, -, -, -, -, -, -, o0, o1⟩ := positions ⟨(i 0).val / 5000, by rw [hN]; omega⟩
  intro a
  match a with
  | ⟨0, _⟩ =>
    show win0_6.index ⟨(i 0).val / 5000, _⟩ (0 : Fin 2) * 5000 ≤ (i 0).val
      ∧ (i 0).val < win0_6.index ⟨(i 0).val / 5000, _⟩ (0 : Fin 2) * 5000 + 5000
    rw [o0]; show (i 0).val / 5000 * 5000 ≤ (i 0).val ∧ (i 0).val < (i 0).val / 5000 * 5000 + 5000; omega
  | ⟨1, _⟩ =>
    show win0_6.index ⟨(i 0).val / 5000, _⟩ (1 : Fin 2) * 128 ≤ (i 1).val
      ∧ (i 1).val < win0_6.index ⟨(i 0).val / 5000, _⟩ (1 : Fin 2) * 128 + 128
    rw [o1]; omega

/-- The result array after the launch is the rectified layer of the arrays the launch found. -/
theorem result (c : Dev nD) :
    (dat0 V c).arrAt 6 cfg0.N
      = Sage.hidden (V c main_arg0) (V c main_v16) (V c main_v6) (V c main_arg3) (V c main_arg4) (V c main_v17) :=
  (dat0 V c).arrAt_eq_of_cover 6 _ (fun t _ => flushed V c t) cover

end Cert.KernelIdeal.Region0

end
-- ==== Proof.KernelRegion1.lean ====
/-
  The second kernel launch, as one array.

  The same walk as the first launch — 20 blocks of 5000 consecutive nodes, the node arrays' windows and the result's
  window at rows `5000·t … 5000·t + 4999`, the weight and bias windows the whole arrays — with a body that stops before the
  rectifier. So the result array after the launch is the layer formula of the arrays the launch found.
-/
import proofs.«162522_j51908974739648_1_alg».proof.Proof.Gen.KernelIdeal.Frame
import proofs.«162522_j51908974739648_1_alg».proof.Proof.KernelBody
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window sits at block `t`: the node windows and the result at block row `t`, block column 0; the
    weight and bias windows at the origin. Decided over the 20 blocks. -/
theorem positions : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first weight window's block is the whole matrix. -/
theorem wself_block (c : Dev nD) (t : Fin cfg1.N) : iblk1 V c 3 t = V c main_v29 := by
  obtain ⟨-, -, -, -, -, -, e0, e1, -⟩ := positions t
  funext y
  show V c main_v29 (((cfg1.win 3).blk t).view.emb y) = V c main_v29 y
  refine congrArg (V c main_v29) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second weight window's block is the whole matrix. -/
theorem wneigh_block (c : Dev nD) (t : Fin cfg1.N) : iblk1 V c 4 t = V c main_v30 := by
  obtain ⟨-, -, -, -, -, -, -, -, e0, e1, -⟩ := positions t
  funext y
  show V c main_v30 (((cfg1.win 4).blk t).view.emb y) = V c main_v30 y
  refine congrArg (V c main_v30) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias window's block is the whole row. -/
theorem bias_block (c : Dev nD) (t : Fin cfg1.N) : iblk1 V c 5 t = V c main_v32 := by
  obtain ⟨-, -, -, -, -, -, -, -, -, -, e0, e1, -⟩ := positions t
  funext y
  show V c main_v32 (((cfg1.win 5).blk t).view.emb y) = V c main_v32 y
  refine congrArg (V c main_v32) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What block `t` writes back is block `t` of the layer of the arrays the launch found. -/
theorem flushed (c : Dev nD) (t : Fin cfg1.N) :
    (dat1 V c).flushed 6 t = ((cfg1.win 6).blk t).view.read (Elt Ideal)
      (Sage.linear (V c main_v18) (V c main_v28) (V c main_v6) (V c main_v29) (V c main_v30) (V c main_v32)) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  rw [wself_block, wneigh_block, bias_block]
  obtain ⟨a0, a1, b0, b1, d0, d1, -, -, -, -, -, -, o0, o1⟩ := positions t
  funext j
  obtain ⟨p, q, rfl⟩ : ∃ (p : Fin 5000) (q : Fin 128), j = ix2 p q := ⟨j 0, j 1, eq_ix2 j⟩
  show k1_pay1 (iblk1 V c 1 t) (iblk1 V c 2 t) (iblk1 V c 0 t) (V c main_v29) (V c main_v30) (V c main_v32) (ix2 p q)
    = Sage.linear (V c main_v18) (V c main_v28) (V c main_v6) (V c main_v29) (V c main_v30) (V c main_v32)
        (((cfg1.win 6).blk t).view.emb (ix2 p q))
  refine (Body.pay1_apply _ _ _ _ _ _ p q).trans ?_
  unfold Sage.linear
  show Sage.pre _ _ _ _ _ _ p q = Sage.pre _ _ _ _ _ _ ((((cfg1.win 6).blk t).view.emb (ix2 p q)) 0) ((((cfg1.win 6).blk t).view.emb (ix2 p q)) 1)
  have hq : (((cfg1.win 6).blk t).view.emb (ix2 p q)) 1 = q :=
    Fin.ext (by show win1_6.index t (1 : Fin 2) * 128 + 1 * q.val = q.val; omega)
  rw [hq]
  refine Sage.pre_congr _ _ _ _ _ _ _ _ _ p _ q (fun k => ?_) (fun k => ?_) ?_
  · show V c main_v18 (((cfg1.win 0).blk t).view.emb (ix2 p k)) = V c main_v18 (ix2 _ k)
    refine congrArg (V c main_v18) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_v28 (((cfg1.win 1).blk t).view.emb (ix2 p k)) = V c main_v28 (ix2 _ k)
    refine congrArg (V c main_v28) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  · show V c main_v6 (((cfg1.win 2).blk t).view.emb (ix2 p (0 : Fin 1))) = V c main_v6 (ix2 _ (0 : Fin 1))
    refine congrArg (V c main_v6) (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega

/-- A node is in block `t` iff each coordinate is in the block's range on its axis. -/
theorem mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- The 20 blocks cover the result: node `r` is in block `r / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_6 _, ?_⟩
  rw [mem_block]
  obtain ⟨-, -, -, -, -, -, -, -, -, -, -, -, o0, o1⟩ := positions ⟨(i 0).val / 5000, by rw [hN]; omega⟩
  intro a
  match a with
  | ⟨0, _⟩ =>
    show win1_6.index ⟨(i 0).val / 5000, _⟩ (0 : Fin 2) * 5000 ≤ (i 0).val
      ∧ (i 0).val < win1_6.index ⟨(i 0).val / 5000, _⟩ (0 : Fin 2) * 5000 + 5000
    rw [o0]; show (i 0).val / 5000 * 5000 ≤ (i 0).val ∧ (i 0).val < (i 0).val / 5000 * 5000 + 5000; omega
  | ⟨1, _⟩ =>
    show win1_6.index ⟨(i 0).val / 5000, _⟩ (1 : Fin 2) * 128 ≤ (i 1).val
      ∧ (i 1).val < win1_6.index ⟨(i 0).val / 5000, _⟩ (1 : Fin 2) * 128 + 128
    rw [o1]; omega

/-- The result array after the launch is the layer of the arrays the launch found. -/
theorem result (c : Dev nD) :
    (dat1 V c).arrAt 6 cfg1.N
      = Sage.linear (V c main_v18) (V c main_v28) (V c main_v6) (V c main_v29) (V c main_v30) (V c main_v32) :=
  (dat1 V c).arrAt_eq_of_cover 6 _ (fun t _ => flushed V c t) cover

end Cert.KernelIdeal.Region1

end
-- ==== Proof.KernelValue.lean ====
/-
  The kernel program's result, as one function of its arguments.

  Folding the chain: the first launch leaves the rectified layer of the input features, their neighbour sums, the
  degree column, the first weights and the first bias row; the second launch leaves the layer of that array, its
  neighbour sums along the same edges, the same degree column and the padded second weights and bias; the result is
  the first 47 columns of it.
-/
import proofs.«162522_j51908974739648_1_alg».proof.Proof.KernelHost2
import proofs.«162522_j51908974739648_1_alg».proof.Proof.KernelRegion0
import proofs.«162522_j51908974739648_1_alg».proof.Proof.KernelRegion1

noncomputable section

namespace Cert.KernelIdeal.HostVal

open Cert.KernelIdeal Cert.KernelIdeal.Gen Idealize.ShloMosaic Idealize.ShloMosaic.TcCoe Idealize.SL.Sem

/-- The first layer's array, from the arguments. -/
def hid (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal)) :
    (⟨S100000x128, .f32⟩ : BufTy).Contents (Elt Ideal) :=
  Sage.hidden x0 (aggr x0 x1 x2) (degcol x2) x3 x4 (row x5)

/-- The program's result, from the arguments. -/
def value (x0 : (⟨S100000x128, .f32⟩ : BufTy).Contents (Elt Ideal)) (x1 x2 : (⟨S640000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x47, .f32⟩ : BufTy).Contents (Elt Ideal)) (x8 : (⟨S47, .f32⟩ : BufTy).Contents (Elt Ideal)) :
    (⟨S100000x47, .f32⟩ : BufTy).Contents (Elt Ideal) :=
  cols47 (Sage.linear (hid x0 x1 x2 x3 x4 x5) (aggr (hid x0 x1 x2 x3 x4 x5) x1 x2) (degcol x2) (padw x6) (padw x7) (row (padb x8)))

variable (m : (ℓ : Loc nD τ sig) → Buf (Elt Ideal) ℓ) (ρ : Dev nD → PrngReg)

/-- What the first launch leaves in its result array. -/
theorem first_launch (c : Dev nD) : W2 m ρ c (Proc.devRef .tc main_v18)
    = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W2_hid, Region0.result (V1 m ρ) c, V1_arg0, V1_msg, V1_deg, V1_arg3, V1_arg4, V1_bias]
  rfl

/-- The last boundary's contents at the result buffer. -/
theorem result (c : Dev nD) : W11 m ρ c (Proc.devRef .tc main_v34)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W11_out, W10_out, Region1.result (V9 m ρ) c, V9_hid, V9_msg, V9_deg, V9_wself, V9_wneigh, V9_bias,
    W2_deg, W2_arg1, W2_arg2, W2_arg6, W2_arg7, W2_arg8, first_launch,
    V1_deg, V1_arg1, V1_arg2, V1_arg6, V1_arg7, V1_arg8]
  rfl

end Cert.KernelIdeal.HostVal

end
-- ==== Proof.SageOut.lean ====
/-
  The second layer with 47 output features, and its padded form.

  With weight matrices of 47 columns and a bias of 47 entries the layer's value at node `i` and output feature `q < 47` is
  the same formula. Padding the matrices and the bias with further columns (whatever they hold) and keeping the first
  47 columns of the result changes nothing: column `q` of a product reads only column `q` of the right factor.
-/
import proofs.«162522_j51908974739648_1_alg».proof.Proof.SageSpec

noncomputable section

namespace Cert.Sage

open Idealize.ShloMosaic Idealize.ShloMosaic.ValueIdx

/-- The layer with 47 output features, at node `i` and output feature `q`. -/
def out47 {n : ℕ} (h msg : (⟨2, ![n, 128]⟩ : Shape).Idx → EReal) (deg : (⟨2, ![n, 1]⟩ : Shape).Idx → EReal)
    (ws wn : (⟨2, ![128, 47]⟩ : Shape).Idx → EReal) (b : (⟨1, ![47]⟩ : Shape).Idx → EReal)
    (i : Fin n) (q : Fin 47) : EReal :=
  (∑ k : Fin 128, h (ix2 i k) * ws (ix2 k q)
    + ∑ k : Fin 128, Ideal.div (msg (ix2 i k)) (deg (ix2 i (0 : Fin 1))) * wn (ix2 k q))
    + b (ix1 q)

/-- The 128-column layer whose weights and bias agree with the 47-column ones on column `q` has the 47-column
    layer's value there. -/
theorem pre_eq_out47 {n : ℕ} (h msg : (⟨2, ![n, 128]⟩ : Shape).Idx → EReal) (deg : (⟨2, ![n, 1]⟩ : Shape).Idx → EReal)
    (ws' wn' : (⟨2, ![128, 128]⟩ : Shape).Idx → EReal) (b' : (⟨2, ![1, 128]⟩ : Shape).Idx → EReal)
    (ws wn : (⟨2, ![128, 47]⟩ : Shape).Idx → EReal) (b : (⟨1, ![47]⟩ : Shape).Idx → EReal)
    (i : Fin n) (q' : Fin 128) (q : Fin 47)
    (hs : ∀ k : Fin 128, ws' (ix2 k q') = ws (ix2 k q)) (hn : ∀ k : Fin 128, wn' (ix2 k q') = wn (ix2 k q))
    (hb : b' (ix2 (0 : Fin 1) q') = b (ix1 q)) :
    pre h msg deg ws' wn' b' i q' = out47 h msg deg ws wn b i q := by
  unfold pre out47
  rw [hb]
  simp only [hs, hn]

end Cert.Sage

end
-- ==== Proof.RefLayers.lean ====
/-
  The reference's two layers, read against the layer formula.

  The reference computes, on whole arrays, `h·ws + (msg / deg)·wn + b` with the degree column and the bias spread over
  the array, then the rectifier; then the same with the 47-column weights and bias on the rectified array and its own
  neighbour sums. Read at node `i` and output feature `q`, each matrix product is the sum over the contracted
  coordinate, the spread degree column is the node's degree and the spread bias is the feature's bias: the first
  layer's array is the rectified layer formula, and the result at `(i, q)` is the 47-column formula of the first layer's
  array.
-/
import proofs.«162522_j51908974739648_1_alg».proof.Proof.Gen.ReferenceIdeal.Read
import proofs.«162522_j51908974739648_1_alg».proof.Proof.SageOut
import Idealize.ShloMosaic.Lib.ValueIdx

noncomputable section

namespace Cert.ReferenceIdeal.Layers

open Cert.ReferenceIdeal Cert.ReferenceIdeal.Read Idealize.ShloMosaic Idealize.ShloMosaic.ValueIdx

/-! ## Where each operation reads its operands, in coordinates -/

theorem lidx19 (i : Fin 100000) (q k : Fin 128) : lidx_main_v19 (ix2 i q) k = ix2 i k :=
  funext fun a => Fin.ext (by match a with | ⟨0, _⟩ => rfl | ⟨1, _⟩ => rfl)
theorem ridx19 (i : Fin 100000) (q k : Fin 128) : ridx_main_v19 (ix2 i q) k = ix2 k q :=
  funext fun a => Fin.ext (by match a with | ⟨0, _⟩ => rfl | ⟨1, _⟩ => rfl)
theorem lidx20 (i : Fin 100000) (q k : Fin 128) : lidx_main_v20 (ix2 i q) k = ix2 i k :=
  funext fun a => Fin.ext (by match a with | ⟨0, _⟩ => rfl | ⟨1, _⟩ => rfl)
theorem ridx20 (i : Fin 100000) (q k : Fin 128) : ridx_main_v20 (ix2 i q) k = ix2 k q :=
  funext fun a => Fin.ext (by match a with | ⟨0, _⟩ => rfl | ⟨1, _⟩ => rfl)
theorem idx17 (i : Fin 100000) (k : Fin 128) : idx_main_v17 (ix2 i k) = ix2 i (0 : Fin 1) :=
  funext fun a => Fin.ext (by match a with | ⟨0, _⟩ => rfl | ⟨1, _⟩ => rfl)
theorem idx23 (i : Fin 100000) (q : Fin 128) : idx_main_v23 (ix2 i q) = ix2 (0 : Fin 1) q :=
  funext fun a => Fin.ext (by match a with | ⟨0, _⟩ => rfl | ⟨1, _⟩ => rfl)
theorem lidx38 (i : Fin 100000) (q : Fin 47) (k : Fin 128) : lidx_main_v38 (ix2 i q) k = ix2 i k :=
  funext fun a => Fin.ext (by match a with | ⟨0, _⟩ => rfl | ⟨1, _⟩ => rfl)
theorem ridx38 (i : Fin 100000) (q : Fin 47) (k : Fin 128) : ridx_main_v38 (ix2 i q) k = ix2 k q :=
  funext fun a => Fin.ext (by match a with | ⟨0, _⟩ => rfl | ⟨1, _⟩ => rfl)
theorem lidx39 (i : Fin 100000) (q : Fin 47) (k : Fin 128) : lidx_main_v39 (ix2 i q) k = ix2 i k :=
  funext fun a => Fin.ext (by match a with | ⟨0, _⟩ => rfl | ⟨1, _⟩ => rfl)
theorem ridx39 (i : Fin 100000) (q : Fin 47) (k : Fin 128) : ridx_main_v39 (ix2 i q) k = ix2 k q :=
  funext fun a => Fin.ext (by match a with | ⟨0, _⟩ => rfl | ⟨1, _⟩ => rfl)
theorem idx36 (i : Fin 100000) (k : Fin 128) : idx_main_v36 (ix2 i k) = ix2 i (0 : Fin 1) :=
  funext fun a => Fin.ext (by match a with | ⟨0, _⟩ => rfl | ⟨1, _⟩ => rfl)
theorem idx4142 (i : Fin 100000) (q : Fin 47) : idx_main_v41 (idx_main_v42 (ix2 i q)) = ix1 q :=
  funext fun a => Fin.ext (by match a with | ⟨0, _⟩ => rfl)

/-! ## The two layers -/

/-- The reference's first layer is the rectified layer formula of the input features, their neighbour sums, the
    degree column, the first weights and the first bias as a row. -/
theorem hidden_eq (x0 : (⟨S100000x128, .f32⟩ : BufTy).Contents (Elt Ideal)) (x1 x2 : (⟨S640000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5
      = Sage.hidden x0 (val_main_v16 (F := Ideal) x0 x1 x2) (val_main_v6 (F := Ideal) x2) x3 x4 (val_main_v22 (F := Ideal) x5) := by
  funext j
  obtain ⟨i, q, rfl⟩ : ∃ (i : Fin 100000) (q : Fin 128), j = ix2 i q := ⟨j 0, j 1, eq_ix2 j⟩
  rw [val_main_v25_apply, val_main_v24_apply, val_main_v21_apply, val_main_v19_apply, val_main_v20_apply, val_main_v23_apply,
    val_main_call0_v0_apply, val_main_call0_cst_apply]
  unfold Sage.hidden Sage.pre
  simp only [val_main_v18_apply, val_main_v17_apply, lidx19, ridx19, lidx20, ridx20, idx17, idx23,
    Ideal.maximumf_def, Ideal.addf_def, Ideal.hostDivf_def, Ideal.ofBits_def]

/-- The reference's result at node `i` and output feature `q` is the 47-column layer formula of its first layer's array
    `H`, of `H`'s neighbour sums, the degree column, the second weights and the second bias. -/
theorem out_apply (x0 : (⟨S100000x128, .f32⟩ : BufTy).Contents (Elt Ideal)) (x1 x2 : (⟨S640000, .i32⟩ : BufTy).Contents (Elt Ideal)) (x3 x4 : (⟨S128x128, .f32⟩ : BufTy).Contents (Elt Ideal)) (x5 : (⟨S128, .f32⟩ : BufTy).Contents (Elt Ideal))
    (x6 x7 : (⟨S128x47, .f32⟩ : BufTy).Contents (Elt Ideal)) (x8 : (⟨S47, .f32⟩ : BufTy).Contents (Elt Ideal))
    (i : Fin 100000) (q : Fin 47) :
    val_main_v43 (F := Ideal) x0 x1 x2 x3 x4 x5 x6 x7 x8 (ix2 i q)
      = Sage.out47 (val_main_v25 (F := Ideal) x0 x1 x2 x3 x4 x5) (val_main_v35 (F := Ideal) x0 x1 x2 x3 x4 x5)
          (val_main_v6 (F := Ideal) x2) x6 x7 x8 i q := by
  rw [val_main_v43_apply, val_main_v40_apply, val_main_v38_apply, val_main_v39_apply, val_main_v42_apply, val_main_v41_apply]
  unfold Sage.out47
  simp only [val_main_v37_apply, val_main_v36_apply, lidx38, ridx38, lidx39, ridx39, idx36, idx4142,
    Ideal.addf_def, Ideal.hostDivf_def]

end Cert.ReferenceIdeal.Layers

end
-- ==== Proof.Bridge.lean ====
/-
  The two programs compute one function.

  Both apply the same host operations for the degree column and for the neighbour sums of a node array; the first
  layers are the same formula of the same operands, so the first layer's arrays agree; hence so do their neighbour
  sums. The kernel program's second layer is the 128-column formula with the weights and bias padded from 47 columns,
  cut back to the first 47 columns; the reference's is the 47-column formula. Column `q < 47` of the padded operands is
  column `q` of the operands, so the results agree entry by entry.
-/
import proofs.«162522_j51908974739648_1_alg».proof.Proof.KernelValue
import proofs.«162522_j51908974739648_1_alg».proof.Proof.RefLayers
import Idealize.ShloMosaic.Lib.ValueLayout
import Idealize.ShloMosaic.Lib.KernelVsHost

noncomputable section

namespace Cert.Bridge

open Cert.ReferenceIdeal Cert.ReferenceIdeal.Read Idealize.ShloMosaic Idealize.ShloMosaic.ValueIdx
open Cert.KernelIdeal.HostVal

/-! ## The shared host operations -/

/-- The reference's neighbour sums of the input features are the kernel program's. -/
theorem aggr_in (x0 : (⟨S100000x128, .f32⟩ : BufTy).Contents (Elt Ideal)) (x1 x2 : (⟨S640000, .i32⟩ : BufTy).Contents (Elt Ideal)) :
    val_main_v16 (F := Ideal) x0 x1 x2 = aggr x0 x1 x2 := rfl

/-- The reference's neighbour sums of its first layer's array are the kernel program's operation on that array. -/
theorem aggr_hid (x0 : (⟨S100000x128, .f32⟩ : BufTy).Contents (Elt Ideal)) (x1 x2 : (⟨S640000, .i32⟩ : BufTy).Contents (Elt Ideal)) (x3 x4 : (⟨S128x128, .f32⟩ : BufTy).Contents (Elt Ideal)) (x5 : (⟨S128, .f32⟩ : BufTy).Contents (Elt Ideal)) :
    val_main_v35 (F := Ideal) x0 x1 x2 x3 x4 x5 = aggr (val_main_v25 (F := Ideal) x0 x1 x2 x3 x4 x5) x1 x2 := rfl

/-- The two degree columns are one. -/
theorem deg_eq (x2 : (⟨S640000, .i32⟩ : BufTy).Contents (Elt Ideal)) : val_main_v6 (F := Ideal) x2 = degcol x2 := rfl

/-- A vector recast as a row is the vector spread over a unit leading axis. -/
theorem row_eq (x5 : (⟨S128, .f32⟩ : BufTy).Contents (Elt Ideal)) : val_main_v22 (F := Ideal) x5 = row x5 := by
  funext y
  obtain ⟨u, q, rfl⟩ : ∃ (u : Fin 1) (q : Fin 128), y = ix2 u q := ⟨y 0, y 1, eq_ix2 y⟩
  rw [val_main_v22_apply]
  unfold row
  refine Eq.trans ?_ (shapeCast_a_1a_apply x5 _ u q).symm
  exact congrArg x5 (funext fun a => Fin.ext (by match a with | ⟨0, _⟩ => rfl))

/-- The first layers' arrays agree. -/
theorem hid_eq (x0 : (⟨S100000x128, .f32⟩ : BufTy).Contents (Elt Ideal)) (x1 x2 : (⟨S640000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5 = hid x0 x1 x2 x3 x4 x5 := by
  rw [Layers.hidden_eq, aggr_in, deg_eq, row_eq]
  rfl

/-! ## The padded operands on their first 47 columns -/

/-- A padded weight matrix at a column below 47 is the matrix there. -/
theorem padw_apply (w : (⟨S128x47, .f32⟩ : BufTy).Contents (Elt Ideal)) (k : Fin 128) (q : Fin 47) :
    padw w (ix2 k (⟨q.val, by omega⟩ : Fin 128)) = w (ix2 k q) := by
  unfold padw
  refine pad_apply_of_inside _ _ _ w _ _ _ _ (ix2 k q) fun a => ?_
  match a with
  | ⟨0, _⟩ => show k.val = 0 + k.val * (0 + 1); omega
  | ⟨1, _⟩ => show q.val = 0 + q.val * (0 + 1); omega

/-- The padded bias, as a row, at a column below 47 is the bias there. -/
theorem rowpad_apply (b : (⟨S47, .f32⟩ : BufTy).Contents (Elt Ideal)) (q : Fin 47) :
    row (padb b) (ix2 (0 : Fin 1) (⟨q.val, by omega⟩ : Fin 128)) = b (ix1 q) := by
  unfold row
  refine (shapeCast_a_1a_apply (padb b) _ (0 : Fin 1) (⟨q.val, by omega⟩ : Fin 128)).trans ?_
  unfold padb
  refine pad_apply_of_inside _ _ _ b _ _ _ _ (ix1 q) fun a => ?_
  match a with
  | ⟨0, _⟩ => show q.val = 0 + q.val * (0 + 1); omega

/-! ## The results -/

/-- The kernel program's result is the reference's, as functions of the arguments. -/
theorem value_eq (x0 : (⟨S100000x128, .f32⟩ : BufTy).Contents (Elt Ideal)) (x1 x2 : (⟨S640000, .i32⟩ : BufTy).Contents (Elt Ideal)) (x3 x4 : (⟨S128x128, .f32⟩ : BufTy).Contents (Elt Ideal)) (x5 : (⟨S128, .f32⟩ : BufTy).Contents (Elt Ideal))
    (x6 x7 : (⟨S128x47, .f32⟩ : BufTy).Contents (Elt Ideal)) (x8 : (⟨S47, .f32⟩ : BufTy).Contents (Elt Ideal)) :
    value x0 x1 x2 x3 x4 x5 x6 x7 x8 = val_main_v43 (F := Ideal) x0 x1 x2 x3 x4 x5 x6 x7 x8 := by
  funext j
  obtain ⟨i, q, rfl⟩ : ∃ (i : Fin 100000) (q : Fin 47), j = ix2 i q := ⟨j 0, j 1, eq_ix2 j⟩
  rw [Layers.out_apply, aggr_hid, deg_eq, hid_eq]
  unfold value cols47
  refine (extractStridedSlice_apply ![0, 0] _ _ (ix2 i q) (ix2 i (⟨q.val, by omega⟩ : Fin 128)) (fun a => by
    match a with
    | ⟨0, _⟩ => show i.val = 0 + i.val; omega
    | ⟨1, _⟩ => show q.val = 0 + q.val; omega)).trans ?_
  exact Sage.pre_eq_out47 _ _ _ _ _ _ _ _ _ i _ q (fun k => padw_apply x6 k q) (fun k => padw_apply x7 k q) (rowpad_apply x8 q)

end Cert.Bridge

end
-- ==== Proof.lean ====
/-
  A two-layer mean-aggregating graph convolution: the tiled kernel program against the whole-array reference.

  Each layer is `h·W_self + (msg / deg)·W_neigh + b`, with `msg` the sums of the neighbours' rows along the edges and
  `deg` the in-degrees clamped below by one; the first layer is followed by the rectifier. The kernel program computes
  the degree column and the neighbour sums on the host, each layer's dense part in a launch over 20 blocks of 5000 nodes
  (rounding the factors to bf16, which is the identity on the extended reals), pads the second layer's 47 output columns
  to 128 and keeps the first 47 columns of the result. The reference computes the same with whole-array operations.

  On the extended reals the two are the same function of the arguments, entry by entry, by termwise identities alone:
  a block's row is the array's row; a product into a zero accumulator is the sum over the contracted coordinate, as
  is the host's product; column `q < 47` of a padded matrix is column `q` of the matrix. No rearrangement of a sum is
  needed, so the precondition is never opened.

  The three frames: the two kernel programs' are the generated frame certificates; the reference's is its generated
  run with the result dropped. The idealization rewrote nothing, so there is nothing to preserve.
-/
import proofs.«162522_j51908974739648_1_alg».proof.Defs
import proofs.«162522_j51908974739648_1_alg».proof.Proof.Gen.Kernel
import proofs.«162522_j51908974739648_1_alg».proof.Proof.Gen.Kernel.Skeleton
import proofs.«162522_j51908974739648_1_alg».proof.Proof.Gen.Kernel.Launch
import proofs.«162522_j51908974739648_1_alg».proof.Proof.Gen.Kernel.Points
import proofs.«162522_j51908974739648_1_alg».proof.Proof.Gen.Kernel.Frame
import proofs.«162522_j51908974739648_1_alg».proof.Proof.Gen.KernelIdeal
import proofs.«162522_j51908974739648_1_alg».proof.Proof.Gen.KernelIdeal.Skeleton
import proofs.«162522_j51908974739648_1_alg».proof.Proof.Gen.KernelIdeal.Launch
import proofs.«162522_j51908974739648_1_alg».proof.Proof.Gen.KernelIdeal.Points
import proofs.«162522_j51908974739648_1_alg».proof.Proof.Gen.KernelIdeal.Frame
import proofs.«162522_j51908974739648_1_alg».proof.Proof.Gen.ReferenceIdeal
import proofs.«162522_j51908974739648_1_alg».proof.Proof.Gen.ReferenceIdeal.Run
import proofs.«162522_j51908974739648_1_alg».proof.Proof.Gen.ReferenceIdeal.Read
import proofs.«162522_j51908974739648_1_alg».proof.Proof.Gen.Pre_finite_inputs
import proofs.«162522_j51908974739648_1_alg».proof.Proof.KernelRun
import proofs.«162522_j51908974739648_1_alg».proof.Proof.KernelValue
import proofs.«162522_j51908974739648_1_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end, from memories that agree on the arguments, with the result buffer at one function of the
    arguments: the kernel program's fold of its chain, which is the reference's composed term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HostVal.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostVal.result m ρ c), (h c).2⟩) (Cert.KernelIdeal.Run.run_named m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v43_eq m' c).trans ?_)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.Bridge.value_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
